-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x128 : Shape := ⟨3, ![8, 8192, 128]⟩
abbrev S512x128 : Shape := ⟨2, ![512, 128]⟩
abbrev S_ : Shape := ⟨0, ![]⟩

class Facts : Prop where
  bcast_S_S8x8192x128 : S_.BroadcastsInDim S8x8192x128 (![] : Fin 0 → Fin S8x8192x128.rank)
  reducesTo_S8x8192x128_S_d0_1_2 : S8x8192x128.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S8x8192x128 .f32) (main_arg1 : FVec F S512x128 .f32) : IVec S_ 1 :=
  let main_v0 : FVec F S8x8192x128 .f32 := Host.absf main_arg0
  let main_cst : FVec F S_ .f32 := constant S_ .f32 0x7F800000#32
  let main_v1 : FVec F S8x8192x128 .f32 := broadcastInDim S8x8192x128 ![] bcast_S_S8x8192x128 main_cst
  let main_v2 : IVec S8x8192x128 1 := cmpf .olt main_v0 main_v1
  let main_c : IVec S_ 1 := constantI S_ 1 1#1
  let main_v3 : IVec S_ 1 := (fun x v => Host.reduce IntOp.andi x v reducesTo_S8x8192x128_S_d0_1_2 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Kernel.lean ====
abbrev S8x8192x128 : Shape := ⟨3, ![8, 8192, 128]⟩
abbrev S512x128 : Shape := ⟨2, ![512, 128]⟩
abbrev S_ : Shape := ⟨0, ![]⟩
abbrev S512 : Shape := ⟨1, ![512]⟩
abbrev S1x512 : Shape := ⟨2, ![1, 512]⟩
abbrev S1x2048x128 : Shape := ⟨3, ![1, 2048, 128]⟩
abbrev S2048x128 : Shape := ⟨2, ![2048, 128]⟩
abbrev S2048x512 : Shape := ⟨2, ![2048, 512]⟩
abbrev S2048 : Shape := ⟨1, ![2048]⟩
abbrev S2048x1 : Shape := ⟨2, ![2048, 1]⟩

abbrev nBuf : Space → Nat
  | .hbm => 8
  | .vmem => 7
  | .smem => 0
  | _ => 0

abbrev bufTy : (tb : Table) → Fin (tcTables nBuf tb) → BufTy
  | .hbm, ⟨0, _⟩ => ⟨S8x8192x128, .f32⟩
  | .hbm, ⟨1, _⟩ => ⟨S512x128, .f32⟩
  | .hbm, ⟨2, _⟩ => ⟨S512x128, .bf16⟩
  | .hbm, ⟨3, _⟩ => ⟨S512x128, .f32⟩
  | .hbm, ⟨4, _⟩ => ⟨S_, .f32⟩
  | .hbm, ⟨5, _⟩ => ⟨S512, .f32⟩
  | .hbm, ⟨6, _⟩ => ⟨S1x512, .f32⟩
  | .hbm, ⟨7, _⟩ => ⟨S8x8192x128, .f32⟩
  | .local _ .vmem, ⟨0, _⟩ => ⟨S1x2048x128, .f32⟩
  | .local _ .vmem, ⟨1, _⟩ => ⟨S1x2048x128, .f32⟩
  | .local _ .vmem, ⟨2, _⟩ => ⟨S512x128, .f32⟩
  | .local _ .vmem, ⟨3, _⟩ => ⟨S512x128, .bf16⟩
  | .local _ .vmem, ⟨4, _⟩ => ⟨S1x512, .f32⟩
  | .local _ .vmem, ⟨5, _⟩ => ⟨S1x2048x128, .f32⟩
  | .local _ .vmem, ⟨6, _⟩ => ⟨S1x2048x128, .f32⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  reducesTo_S512x128_S512_d1 : S512x128.ReducesTo [1] S512
  h_S_ : 0 < S_.numel
  bcast_S512_S1x512_1 : S512.BroadcastsInDim S1x512 (![1] : Fin 1 → Fin S1x512.rank)
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S2048x128_S2048 : S2048x128.Reduces [1] S2048
  shapeCasts_S2048_S2048x1 : S2048.ShapeCasts S2048x1
  broadcasts_S2048x1_S2048x512 : S2048x1.Broadcasts S2048x512
  broadcasts_S1x512_S2048x512 : S1x512.Broadcasts S2048x512
  reduces_S2048x512_S2048 : S2048x512.Reduces [1] S2048
  shapeCasts_S2048x128_S1x2048x128 : S2048x128.ShapeCasts S1x2048x128
  dot_S2048x128_S512x128_S2048x512_1_1_0_0_n_n_wf : DotDims.WF S2048x128 S512x128 S2048x512 [1] [1] [0] [0] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x8192x128.size a
  hwx0_0 : ∀ i : grid0.Coords, EltTy.bits .f32 = 32 ∨ (Rect.block (s := S8x8192x128) S1x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .bf16 = 32 ∨ (Rect.block (s := S512x128) S512x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S8x8192x128.size a
  hwx0_4 : ∀ i : grid0.Coords, EltTy.bits .f32 = 32 ∨ (Rect.block (s := S8x8192x128) S1x2048x128.size (cc0_transform_4 i) (hinb0_4 i)).WholeWords (EltTy.packing .f32)

variable [Facts₀]

def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x8192x128 : Shape := ⟨3, ![8, 8192, 128]⟩
abbrev S512x128 : Shape := ⟨2, ![512, 128]⟩
abbrev S_ : Shape := ⟨0, ![]⟩
abbrev S8x8192 : Shape := ⟨2, ![8, 8192]⟩
abbrev S8x8192x1 : Shape := ⟨3, ![8, 8192, 1]⟩
abbrev S512 : Shape := ⟨1, ![512]⟩
abbrev S8x8192x512 : Shape := ⟨3, ![8, 8192, 512]⟩
abbrev S1x1x512 : Shape := ⟨3, ![1, 1, 512]⟩

abbrev nBuf : Space → Nat
  | .hbm => 38
  | .vmem => 0
  | .smem => 0
  | _ => 0

abbrev bufTy : (tb : Table) → Fin (tcTables nBuf tb) → BufTy
  | .hbm, ⟨0, _⟩ => ⟨S8x8192x128, .f32⟩
  | .hbm, ⟨1, _⟩ => ⟨S512x128, .f32⟩
  | .hbm, ⟨2, _⟩ => ⟨S8x8192x128, .f32⟩
  | .hbm, ⟨3, _⟩ => ⟨S_, .f32⟩
  | .hbm, ⟨4, _⟩ => ⟨S8x8192, .f32⟩
  | .hbm, ⟨5, _⟩ => ⟨S8x8192x1, .f32⟩
  | .hbm, ⟨6, _⟩ => ⟨S512x128, .f32⟩
  | .hbm, ⟨7, _⟩ => ⟨S_, .f32⟩
  | .hbm, ⟨8, _⟩ => ⟨S512, .f32⟩
  | .hbm, ⟨9, _⟩ => ⟨S8x8192x512, .f32⟩
  | .hbm, ⟨10, _⟩ => ⟨S1x1x512, .f32⟩
  | .hbm, ⟨11, _⟩ => ⟨S8x8192x512, .f32⟩
  | .hbm, ⟨12, _⟩ => ⟨S8x8192x512, .f32⟩
  | .hbm, ⟨13, _⟩ => ⟨S8x8192x512, .f32⟩
  | .hbm, ⟨14, _⟩ => ⟨S_, .f32⟩
  | .hbm, ⟨15, _⟩ => ⟨S8x8192x512, .f32⟩
  | .hbm, ⟨16, _⟩ => ⟨S8x8192x512, .f32⟩
  | .hbm, ⟨17, _⟩ => ⟨S8x8192x512, .f32⟩
  | .hbm, ⟨18, _⟩ => ⟨S_, .f32⟩
  | .hbm, ⟨19, _⟩ => ⟨S8x8192x512, .f32⟩
  | .hbm, ⟨20, _⟩ => ⟨S8x8192x512, .f32⟩
  | .hbm, ⟨21, _⟩ => ⟨S8x8192x512, .f32⟩
  | .hbm, ⟨22, _⟩ => ⟨S8x8192x512, .f32⟩
  | .hbm, ⟨23, _⟩ => ⟨S_, .f32⟩
  | .hbm, ⟨24, _⟩ => ⟨S8x8192, .f32⟩
  | .hbm, ⟨25, _⟩ => ⟨S_, .f32⟩
  | .hbm, ⟨26, _⟩ => ⟨S8x8192, .f32⟩
  | .hbm, ⟨27, _⟩ => ⟨S8x8192, .f32⟩
  | .hbm, ⟨28, _⟩ => ⟨S8x8192x1, .f32⟩
  | .hbm, ⟨29, _⟩ => ⟨S8x8192x512, .f32⟩
  | .hbm, ⟨30, _⟩ => ⟨S8x8192x512, .f32⟩
  | .hbm, ⟨31, _⟩ => ⟨S8x8192x512, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S8x8192x512, .f32⟩
  | .hbm, ⟨36, _⟩ => ⟨S8x8192x512, .f32⟩
  | .hbm, ⟨37, _⟩ => ⟨S8x8192x128, .f32⟩
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  reducesTo_S8x8192x128_S8x8192_d2 : S8x8192x128.ReducesTo [2] S8x8192
  h_S_ : 0 < S_.numel
  bcast_S8x8192_S8x8192x1_0_1 : S8x8192.BroadcastsInDim S8x8192x1 (![0, 1] : Fin 2 → Fin S8x8192x1.rank)
  reducesTo_S512x128_S512_d1 : S512x128.ReducesTo [1] S512
  bcast_S512_S1x1x512_2 : S512.BroadcastsInDim S1x1x512 (![2] : Fin 1 → Fin S1x1x512.rank)
  bcast_S8x8192x1_S8x8192x512_0_1_2 : S8x8192x1.BroadcastsInDim S8x8192x512 (![0, 1, 2] : Fin 3 → Fin S8x8192x512.rank)
  bcast_S1x1x512_S8x8192x512_0_1_2 : S1x1x512.BroadcastsInDim S8x8192x512 (![0, 1, 2] : Fin 3 → Fin S8x8192x512.rank)
  bcast_S_S8x8192x512 : S_.BroadcastsInDim S8x8192x512 (![] : Fin 0 → Fin S8x8192x512.rank)
  reducesTo_S8x8192x512_S8x8192_d2 : S8x8192x512.ReducesTo [2] S8x8192
  bcast_S_S8x8192 : S_.BroadcastsInDim S8x8192 (![] : Fin 0 → Fin S8x8192.rank)
  dot_S8x8192x128_S512x128_S8x8192x512_2_1_01_0_n_n_wf : DotDims.WF S8x8192x128 S512x128 S8x8192x512 [2] [1] [0, 1] [0] [] []
  dot_S8x8192x512_S512x128_S8x8192x128_2_0_01_1_n_n_wf : DotDims.WF S8x8192x512 S512x128 S8x8192x128 [2] [0] [0, 1] [1] [] []

variable [Facts₀]

def dot_S8x8192x128_S512x128_S8x8192x512_2_1_01_0_n_n : DotDims S8x8192x128 S512x128 S8x8192x512 where
  lhsContracting := [2]
  rhsContracting := [1]
  lhsNonContracting := [0, 1]
  rhsNonContracting := [0]
  lhsBatch := []
  rhsBatch := []
  wf := dot_S8x8192x128_S512x128_S8x8192x512_2_1_01_0_n_n_wf
def dot_S8x8192x512_S512x128_S8x8192x128_2_0_01_1_n_n : DotDims S8x8192x512 S512x128 S8x8192x128 where
  lhsContracting := [2]
  rhsContracting := [0]
  lhsNonContracting := [0, 1]
  rhsNonContracting := [1]
  lhsBatch := []
  rhsBatch := []
  wf := dot_S8x8192x512_S512x128_S8x8192x128_2_0_01_1_n_n_wf

class Facts : Prop extends Facts₀ where

variable [Facts]
-- ==== Proof.Spec.lean ====
/-
  The soft assignment of rows to cluster centers, as one function of the two argument arrays over the extended
  reals. For a row `v` of `x` (128 numbers) and the 512 centers `C k`:
    the negated distance   `negDist v (C k) = -√(max (|v|² + |C k|² - 2·⟨v, C k⟩) 0)`,
    its row maximum        `rowMax v C`, the fold of `max` from -∞ over the 512 centers,
    the weight             `weight v C k = exp (negDist v (C k) - rowMax v C)`,
    the share              `share v C k = weight v C k / ∑ k', weight v C k'`  (a softmax of the negated distances),
    the blend              `blend v C f = ∑ k, share v C k · C k f`           (the centers averaged by their shares).
  `assign x c` is the blend of every row: entry (b, n, f) of the result depends on row (b, n) of `x` and on all of `c`.
  The three constants are kept as the words the programs print (2.0, 0.0, -∞): the same word on both sides is never
  evaluated.
-/
import Idealize.ShloMosaic.PureOps.Ideal
import Idealize.ShloMosaic.PureOps.Ideal.Laws
import Idealize.ShloMosaic.Lib.ValueIdx

noncomputable section

open scoped BigOperators

namespace Cert.SoftAssign

open Idealize.ShloMosaic Idealize.ShloMosaic.ValueIdx

/-- The squared length of a vector of 128 extended reals. -/
def sqLen (v : Fin 128 → EReal) : EReal := ∑ f : Fin 128, v f * v f

/-- The inner product of two such vectors. -/
def inner (v w : Fin 128 → EReal) : EReal := ∑ f : Fin 128, v f * w f

/-- Minus the distance between `v` and `w`, by `|v|² + |w|² - 2⟨v, w⟩` clamped at zero before the root. -/
def negDist (v w : Fin 128 → EReal) : EReal :=
  -(Ideal.sqrt (max (sqLen v + sqLen w - Ideal.ofBits .f32 0x40000000#32 * inner v w) (Ideal.ofBits .f32 0x00000000#32)))

/-- The greatest negated distance from `v` to a center (the fold of `max` from -∞). -/
def rowMax (v : Fin 128 → EReal) (C : Fin 512 → Fin 128 → EReal) : EReal :=
  (Finset.univ : Finset (Fin 512)).fold max (Ideal.ofBits .f32 0xFF800000#32) (fun k => negDist v (C k))

/-- The unnormalised weight of center `k` for the row `v`. -/
def weight (v : Fin 128 → EReal) (C : Fin 512 → Fin 128 → EReal) (k : Fin 512) : EReal :=
  Ideal.exp (negDist v (C k) - rowMax v C)

/-- The sum of a row's weights. -/
def total (v : Fin 128 → EReal) (C : Fin 512 → Fin 128 → EReal) : EReal := ∑ k : Fin 512, weight v C k

/-- The share of center `k` in the row `v`: its weight over the row's total. -/
def share (v : Fin 128 → EReal) (C : Fin 512 → Fin 128 → EReal) (k : Fin 512) : EReal :=
  Ideal.div (weight v C k) (total v C)

/-- The centers averaged by their shares, coordinate `f`. -/
def blend (v : Fin 128 → EReal) (C : Fin 512 → Fin 128 → EReal) (f : Fin 128) : EReal :=
  ∑ k : Fin 512, share v C k * C k f

/-- The shapes of the two argument arrays. -/
abbrev SX : Shape := ⟨3, ![8, 8192, 128]⟩
abbrev SC : Shape := ⟨2, ![512, 128]⟩

/-- Row (b, n) of `x`. -/
def rowOf (x : SX.Idx → EReal) (b : Fin 8) (n : Fin 8192) : Fin 128 → EReal := fun f => x (ix3 b n f)

/-- The centers as a family of rows. -/
def centers (c : SC.Idx → EReal) : Fin 512 → Fin 128 → EReal := fun k f => c (ix2 k f)

/-- THE RESULT: entry (b, n, f) is coordinate `f` of the blend of row (b, n). -/
def assign (x : SX.Idx → EReal) (c : SC.Idx → EReal) : SX.Idx → EReal :=
  fun i => blend (rowOf x (i 0) (i 1)) (centers c) (i 2)

/-- `max` against the fold's own starting value changes nothing: the fold is at least its start. -/
theorem max_start_fold {ι : Type*} (s : Finset ι) (b : EReal) (g : ι → EReal) :
    max b (s.fold max b g) = s.fold max b g :=
  max_eq_right (Finset.le_fold_max (c := b) |>.mpr (Or.inl le_rfl))

end Cert.SoftAssign

end
-- ==== Proof.RefIsSpec.lean ====
/-
  The reference's result, read one operation at a time, is `assign` of its two arguments.
  Each stage of the reference is read at an index: the two squared lengths and the inner product are sums over the
  128 coordinates (the host's sums start from the zero word, which adds nothing); the negated distance is then the same
  expression as in the specification; the row maximum is the host's max-reduce over the 512 centers, a fold of `max` from
  -∞, and the extra `max` against -∞ the reference applies afterwards changes nothing; weights, their total, the shares and
  the final contraction follow term by term.
-/
import proofs.«146336_j82051055222995_2_alg».proof.Proof.Gen.ReferenceIdeal.Read
import proofs.«146336_j82051055222995_2_alg».proof.Proof.Spec
import Idealize.ShloMosaic.PureOps.Reduce

noncomputable section

open scoped BigOperators

namespace Cert.ReferenceIdeal.RefValue

open Cert.ReferenceIdeal Cert.ReferenceIdeal.Gen Cert.ReferenceIdeal.Read Cert.SoftAssign
open Idealize.ShloMosaic Idealize.ShloMosaic.ValueIdx

variable (x0 : (⟨S8x8192x128, .f32⟩ : BufTy).Contents (Elt Ideal)) (x1 : (⟨S512x128, .f32⟩ : BufTy).Contents (Elt Ideal))

/-- The squared length of a row of `x`, as the reference sums it. -/
theorem v1_eq (i : S8x8192.Idx) : val_main_v1 (F := Ideal) x0 i = sqLen (rowOf x0 (i 0) (i 1)) := by
  rw [val_main_v1_apply]
  show Ideal.ofBits .f32 0x00000000#32 + _ = _
  rw [Ideal.ofBits_zero_f32, zero_add]
  refine Finset.sum_congr rfl fun k _ => ?_
  have e : idx_main_v1 i k = ix3 (i 0) (i 1) k := funext fun a => by
    match a with | ⟨0, _⟩ => rfl | ⟨1, _⟩ => rfl | ⟨2, _⟩ => rfl
  rw [val_main_v0_apply, e]; rfl

/-- The squared length of a center, as the reference sums it. -/
theorem v4_eq (i : S512.Idx) : val_main_v4 (F := Ideal) x1 i = sqLen (centers x1 (i 0)) := by
  rw [val_main_v4_apply]
  show Ideal.ofBits .f32 0x00000000#32 + _ = _
  rw [Ideal.ofBits_zero_f32, zero_add]
  refine Finset.sum_congr rfl fun k _ => ?_
  have e : idx_main_v4 i k = ix2 (i 0) k := funext fun a => by
    match a with | ⟨0, _⟩ => rfl | ⟨1, _⟩ => rfl
  rw [val_main_v3_apply, e]; rfl

/-- The reference's first contraction is the inner product of a row with a center. -/
theorem v5_eq (j : S8x8192x512.Idx) : val_main_v5 (F := Ideal) x0 x1 j = inner (rowOf x0 (j 0) (j 1)) (centers x1 (j 2)) := by
  rw [val_main_v5_apply]
  refine Finset.sum_congr rfl fun k _ => ?_
  have el : lidx_main_v5 j k = ix3 (j 0) (j 1) k := funext fun a => by
    match a with | ⟨0, _⟩ => rfl | ⟨1, _⟩ => rfl | ⟨2, _⟩ => rfl
  have er : ridx_main_v5 j k = ix2 (j 2) k := funext fun a => by
    match a with | ⟨0, _⟩ => rfl | ⟨1, _⟩ => rfl
  rw [el, er]; rfl

/-- The negated distance, as the reference computes it. -/
theorem v16_eq (j : S8x8192x512.Idx) : val_main_v16 (F := Ideal) x0 x1 j = negDist (rowOf x0 (j 0) (j 1)) (centers x1 (j 2)) := by
  rw [val_main_v16_apply, val_main_v15_apply, val_main_v14_apply, val_main_v12_apply, val_main_v13_apply, val_main_cst_2_apply,
    val_main_v9_apply, val_main_v11_apply, val_main_v10_apply, val_main_cst_1_apply, val_main_v7_apply, val_main_v8_apply,
    val_main_v2_apply, val_main_v6_apply, v1_eq, v4_eq, v5_eq]
  rfl

/-- The host's max-reduce over the centers is the fold of `max` from -∞ over the negated distances of the row. -/
theorem v17_eq (i : S8x8192.Idx) : val_main_v17 (F := Ideal) x0 x1 i
    = (Finset.univ : Finset (Fin 512)).fold max (Ideal.ofBits .f32 0xFF800000#32) (fun k => negDist (rowOf x0 (i 0) (i 1)) (centers x1 k)) := by
  have h : S8x8192x512.Reduces [2] S8x8192 := by decide
  unfold val_main_v17
  rw [Host.reduce_eq_fold_single FloatOps.maximumf _ _ reducesTo_S8x8192x512_S8x8192_d2 h h_S_ i]
  have hg : (val_main_v16 (F := Ideal) x0 x1 ∘ h.lift i) = fun k => negDist (rowOf x0 (i 0) (i 1)) (centers x1 k) :=
    funext fun k => by
      show val_main_v16 (F := Ideal) x0 x1 (h.lift i k) = _
      have e0 : h.lift i k 0 = i 0 := Fin.ext rfl
      have e1 : h.lift i k 1 = i 1 := Fin.ext rfl
      have e2 : h.lift i k 2 = k := Fin.ext rfl
      rw [v16_eq, e0, e1, e2]
  rw [hg]
  rfl

/-- The row maximum, as the reference computes it (its extra `max` against -∞ is absorbed). -/
theorem v19_eq (i : S8x8192.Idx) : val_main_v19 (F := Ideal) x0 x1 i = rowMax (rowOf x0 (i 0) (i 1)) (centers x1) := by
  rw [val_main_v19_apply, val_main_v18_apply, val_main_cst_4_apply, v17_eq]
  exact max_start_fold _ _ _

/-- The weight of a center for a row. -/
theorem v23_eq (j : S8x8192x512.Idx) : val_main_v23 (F := Ideal) x0 x1 j = weight (rowOf x0 (j 0) (j 1)) (centers x1) (j 2) := by
  rw [val_main_v23_apply, val_main_v22_apply, v16_eq, val_main_v21_apply, val_main_v20_apply, v19_eq]
  rfl

/-- The total of a row's weights (the host's sum starts from the zero word). -/
theorem v24_eq (i : S8x8192.Idx) : val_main_v24 (F := Ideal) x0 x1 i = total (rowOf x0 (i 0) (i 1)) (centers x1) := by
  rw [val_main_v24_apply]
  show Ideal.ofBits .f32 0x00000000#32 + _ = _
  rw [Ideal.ofBits_zero_f32, zero_add]
  refine Finset.sum_congr rfl fun k _ => ?_
  rw [v23_eq]; rfl

/-- The share of a center in a row. -/
theorem v27_eq (j : S8x8192x512.Idx) : val_main_v27 (F := Ideal) x0 x1 j = share (rowOf x0 (j 0) (j 1)) (centers x1) (j 2) := by
  rw [val_main_v27_apply, v23_eq, val_main_v26_apply, val_main_v25_apply, v24_eq]
  rfl

/-- THE REFERENCE'S RESULT is `assign` of its arguments. -/
theorem result_eq : val_main_v28 (F := Ideal) x0 x1 = assign x0 x1 := by
  funext i
  rw [val_main_v28_apply]
  show _ = ∑ k : Fin 512, share (rowOf x0 (i 0) (i 1)) (centers x1) k * centers x1 k (i 2)
  refine Finset.sum_congr rfl fun k _ => ?_
  rw [v27_eq]
  have er : ridx_main_v28 i k = ix2 k (i 2) := funext fun a => by
    match a with | ⟨0, _⟩ => rfl | ⟨1, _⟩ => rfl
  rw [er]; rfl

end Cert.ReferenceIdeal.RefValue

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.Body.lean ====
/-
  What the kernel body stores, read at an index. The body works on one block of 2048 rows of `x` against all 512
  centers: a matrix product of the rows with the centers (the inner products), the rows' squared lengths as a row sum kept
  as a column, the centers' squared lengths as a row handed in, the negated distances, their row maximum kept as a column,
  the weights, their row sum kept as a column, the shares, and a second matrix product of the shares with the centers.
  The stages are named here as functions of vectors (`negd`, `rmax`, `wts`, `tot`, `shr`, `outm`); the stored value is
  their composition (`pay_eq`, by unfolding). Each stage read at (row r, center k) is the specification's term for the
  row: at the extended reals a matrix product into a zero accumulator is the sum of products over the contracted axis, a
  narrowing of format is the identity, and `0 - d` is `-d`. The block's copy of the centers in the narrower format is only
  assumed to hold the same values (`hB`), and the row of squared lengths to hold each center's squared length (`hQ`).
-/
import proofs.«146336_j82051055222995_2_alg».proof.Proof.Gen.KernelIdeal.Skeleton
import proofs.«146336_j82051055222995_2_alg».proof.Proof.Spec
import proofs.«146336_j82051055222995_2_alg».proof.Proof.LibKeepdims
import Idealize.ShloMosaic.Lib.ValueLayout
import Idealize.ShloMosaic.PureOps.Ideal.Laws

noncomputable section

open scoped BigOperators

namespace Cert.KernelIdeal.Body

open Cert.KernelIdeal Cert.KernelIdeal.Gen Cert.SoftAssign Cert.Lib
open Idealize.ShloMosaic Idealize.ShloMosaic.ValueIdx

/-- The two matrix products' dimension records: rows × centers contracting the 128 coordinates, and shares × centers
    contracting the 512 centers. -/
abbrev D1 : DotDims S2048x128 S512x128 S2048x512 := dot_S2048x128_S512x128_S2048x512_1_1_0_0_n_n
abbrev D2 : DotDims S2048x512 S512x128 S2048x128 := dot_S2048x512_S512x128_S2048x128_1_0_0_1_n_n

/-! ## The operand indices of the two products -/

theorem D1_lhs0 (j : S2048x512.Idx) (q : D1.contr.Idx) : (D1.lhsIdx j q 0).val = (j 0).val := by
  unfold DotDims.lhsIdx
  rw [dif_neg (show ¬(0 : Fin S2048x128.rank) ∈ D1.lhsBatch by decide), dif_pos (show (0 : Fin S2048x128.rank) ∈ D1.lhsNonContracting by decide)]
  rfl
theorem D1_lhs1 (j : S2048x512.Idx) (q : D1.contr.Idx) : (D1.lhsIdx j q 1).val = (q ⟨0, by decide⟩).val :=
  D1.lhsIdx_val_of_single rfl j q
theorem D1_rhs0 (j : S2048x512.Idx) (q : D1.contr.Idx) : (D1.rhsIdx j q 0).val = (j 1).val := by
  unfold DotDims.rhsIdx
  rw [dif_neg (show ¬(0 : Fin S512x128.rank) ∈ D1.rhsBatch by decide), dif_pos (show (0 : Fin S512x128.rank) ∈ D1.rhsNonContracting by decide)]
  rfl
theorem D1_rhs1 (j : S2048x512.Idx) (q : D1.contr.Idx) : (D1.rhsIdx j q 1).val = (q ⟨0, by decide⟩).val :=
  D1.rhsIdx_val_of_single rfl j q

theorem D2_lhs0 (j : S2048x128.Idx) (q : D2.contr.Idx) : (D2.lhsIdx j q 0).val = (j 0).val := by
  unfold DotDims.lhsIdx
  rw [dif_neg (show ¬(0 : Fin S2048x512.rank) ∈ D2.lhsBatch by decide), dif_pos (show (0 : Fin S2048x512.rank) ∈ D2.lhsNonContracting by decide)]
  rfl
theorem D2_lhs1 (j : S2048x128.Idx) (q : D2.contr.Idx) : (D2.lhsIdx j q 1).val = (q ⟨0, by decide⟩).val :=
  D2.lhsIdx_val_of_single rfl j q
theorem D2_rhs0 (j : S2048x128.Idx) (q : D2.contr.Idx) : (D2.rhsIdx j q 0).val = (q ⟨0, by decide⟩).val :=
  D2.rhsIdx_val_of_single rfl j q
theorem D2_rhs1 (j : S2048x128.Idx) (q : D2.contr.Idx) : (D2.rhsIdx j q 1).val = (j 1).val := by
  unfold DotDims.rhsIdx
  rw [dif_neg (show ¬(1 : Fin S512x128.rank) ∈ D2.rhsBatch by decide), dif_pos (show (1 : Fin S512x128.rank) ∈ D2.rhsNonContracting by decide)]
  rfl

/-- The first product at (r, k): the inner product of row r with center k. -/
theorem cross_apply (p : Option ContractPrecision) (X : FVec Ideal S2048x128 .f32) (C : FVec Ideal S512x128 .f32)
    (r : Fin 2048) (k : Fin 512) :
    matmul D1 p X C (constant (F := Ideal) S2048x512 .f32 0x00000000#32) (ix2 r k) = inner (fun f => X (ix2 r f)) (centers C k) := by
  show FloatOps.matmul D1 p X C (constant (F := Ideal) S2048x512 .f32 0x00000000#32) (ix2 r k) = ∑ f : Fin 128, X (ix2 r f) * C (ix2 k f)
  refine (Ideal.matmul_constant_zero_apply D1 p X C (ix2 r k)).trans ?_
  rw [← Equiv.sum_comp (contrEquiv1 D1 128 rfl rfl).symm]
  refine Finset.sum_congr rfl fun f _ => ?_
  have hk := contrEquiv1_symm_val D1 128 rfl rfl f
  have el : D1.lhsIdx (ix2 r k) ((contrEquiv1 D1 128 rfl rfl).symm f) = ix2 r f := funext fun a => Fin.ext (by
    match a with
    | ⟨0, _⟩ => exact D1_lhs0 _ _
    | ⟨1, _⟩ => exact (D1_lhs1 _ _).trans hk)
  have er : D1.rhsIdx (ix2 r k) ((contrEquiv1 D1 128 rfl rfl).symm f) = ix2 k f := funext fun a => Fin.ext (by
    match a with
    | ⟨0, _⟩ => exact D1_rhs0 _ _
    | ⟨1, _⟩ => exact (D1_rhs1 _ _).trans hk)
  rw [el, er]

/-- The second product at (r, f): the sum over the centers of the left factor at (r, k) times the right at (k, f). -/
theorem blendMat_apply (p : Option ContractPrecision) (A : FVec Ideal S2048x512 .bf16) (B : FVec Ideal S512x128 .bf16)
    (r : Fin 2048) (f : Fin 128) :
    matmul D2 p A B (constant (F := Ideal) S2048x128 .f32 0x00000000#32) (ix2 r f) = ∑ k : Fin 512, A (ix2 r k) * B (ix2 k f) := by
  show FloatOps.matmul D2 p A B (constant (F := Ideal) S2048x128 .f32 0x00000000#32) (ix2 r f) = _
  refine (Ideal.matmul_constant_zero_apply D2 p A B (ix2 r f)).trans ?_
  rw [← Equiv.sum_comp (contrEquiv1 D2 512 rfl rfl).symm]
  refine Finset.sum_congr rfl fun k _ => ?_
  have hk := contrEquiv1_symm_val D2 512 rfl rfl k
  have el : D2.lhsIdx (ix2 r f) ((contrEquiv1 D2 512 rfl rfl).symm k) = ix2 r k := funext fun a => Fin.ext (by
    match a with
    | ⟨0, _⟩ => exact D2_lhs0 _ _
    | ⟨1, _⟩ => exact (D2_lhs1 _ _).trans hk)
  have er : D2.rhsIdx (ix2 r f) ((contrEquiv1 D2 512 rfl rfl).symm k) = ix2 k f := funext fun a => Fin.ext (by
    match a with
    | ⟨0, _⟩ => exact (D2_rhs0 _ _).trans hk
    | ⟨1, _⟩ => exact D2_rhs1 _ _)
  rw [el, er]

/-! ## The body's stages -/

/-- The negated distances of a block's rows `X` to the centers `C`, given the row `Q` of the centers' squared lengths. -/
def negd (X : FVec Ideal S2048x128 .f32) (C : FVec Ideal S512x128 .f32) (Q : FVec Ideal S1x512 .f32) : FVec Ideal S2048x512 .f32 :=
  subf (broadcast S2048x512 (Scalar.ofBits (F := Ideal) .f32 0x00000000#32))
    (sqrt (maximumf
      (subf
        (addf
          (broadcastTo S2048x512 (shapeCast S2048x1 (multiReduction .add [1] S2048 (mulf X X) 0x00000000#32 reduces_S2048x128_S2048 (.inl rfl) rfl) shapeCasts_S2048_S2048x1) broadcasts_S2048x1_S2048x512)
          (broadcastTo S2048x512 Q broadcasts_S1x512_S2048x512))
        (mulf (broadcast S2048x512 (Scalar.ofBits (F := Ideal) .f32 0x40000000#32)) (matmul D1 (some .fp32) X C (constant (F := Ideal) S2048x512 .f32 0x00000000#32))))
      (broadcast S2048x512 (Scalar.ofBits (F := Ideal) .f32 0x00000000#32))))

/-- A matrix's row maxima, kept as a column and broadcast back along the rows. -/
def rmax (N : FVec Ideal S2048x512 .f32) : FVec Ideal S2048x512 .f32 :=
  broadcastTo S2048x512 (shapeCast S2048x1 (multiReduction .maximumf [1] S2048 N 0xFF800000#32 reduces_S2048x512_S2048 (.inl rfl) rfl) shapeCasts_S2048_S2048x1) broadcasts_S2048x1_S2048x512

/-- The weights: the exponential of each entry less its row's maximum. -/
def wts (N : FVec Ideal S2048x512 .f32) : FVec Ideal S2048x512 .f32 := exp (subf N (rmax N))

/-- A matrix's row sums, kept as a column and broadcast back along the rows. -/
def tot (W : FVec Ideal S2048x512 .f32) : FVec Ideal S2048x512 .f32 :=
  broadcastTo S2048x512 (shapeCast S2048x1 (multiReduction .add [1] S2048 W 0x00000000#32 reduces_S2048x512_S2048 (.inl rfl) rfl) shapeCasts_S2048_S2048x1) broadcasts_S2048x1_S2048x512

/-- The shares: each weight over its row's total. -/
def shr (W : FVec Ideal S2048x512 .f32) : FVec Ideal S2048x512 .f32 := divf W (tot W)

/-- The shares, narrowed, times the narrowed copy of the centers. -/
def outm (S : FVec Ideal S2048x512 .f32) (B : FVec Ideal S512x128 .bf16) : FVec Ideal S2048x128 .f32 :=
  matmul D2 none (truncf .bf16 S bitsLt_bf16_f32) B (constant (F := Ideal) S2048x128 .f32 0x00000000#32)

set_option maxRecDepth 65536 in
/-- The stored value is the composition of the stages on the loaded blocks. -/
theorem pay_eq (v0 : Vec Ideal S1x2048x128 .f32) (v2 : Vec Ideal S512x128 .f32) (v3 : Vec Ideal S512x128 .bf16) (v5 : Vec Ideal S1x512 .f32) :
    k0_pay1 (F := Ideal) v0 v2 v3 v5
      = shapeCast S1x2048x128
          (outm (shr (wts (negd (shapeCast S2048x128 v0 shapeCasts_S1x2048x128_S2048x128) v2 (shapeCast S1x512 v5 shapeCasts_S1x512_S1x512))))
            (shapeCast S512x128 v3 shapeCasts_S512x128_S512x128))
          shapeCasts_S2048x128_S1x2048x128 := rfl

/-! ## The stages at an index -/

section Stages
variable (X : FVec Ideal S2048x128 .f32) (C : FVec Ideal S512x128 .f32) (Q : FVec Ideal S1x512 .f32)

/-- A negated distance of the block is the specification's, when the handed-in row holds the centers' squared lengths. -/
theorem negd_apply (hQ : ∀ k : Fin 512, (Q (ix2 (0 : Fin 1) k) : EReal) = sqLen (centers C k)) (r : Fin 2048) (k : Fin 512) :
    negd X C Q (ix2 r k) = negDist (fun f => X (ix2 r f)) (centers C k) := by
  have e1 : broadcastTo S2048x512 (shapeCast S2048x1 (multiReduction .add [1] S2048 (mulf X X) 0x00000000#32 reduces_S2048x128_S2048 (.inl rfl) rfl) shapeCasts_S2048_S2048x1) broadcasts_S2048x1_S2048x512 (ix2 r k)
      = sqLen (fun f => X (ix2 r f)) :=
    rowSum_keepdims_apply (mulf X X) 0x00000000#32 reduces_S2048x128_S2048 (.inl rfl) rfl shapeCasts_S2048_S2048x1 broadcasts_S2048x1_S2048x512 r k
  have e2 : broadcastTo S2048x512 Q broadcasts_S1x512_S2048x512 (ix2 r k) = sqLen (centers C k) :=
    (broadcastTo_1b_ab_apply Q broadcasts_S1x512_S2048x512 r k).trans (hQ k)
  have e3 := cross_apply (some .fp32) X C r k
  show (Scalar.ofBits (F := Ideal) .f32 0x00000000#32 : EReal)
      - Ideal.sqrt (max (_ + _ - (Scalar.ofBits (F := Ideal) .f32 0x40000000#32 : EReal) * _) (Scalar.ofBits (F := Ideal) .f32 0x00000000#32 : EReal)) = _
  rw [e1, e2, e3]
  exact (congrArg (· - _) Ideal.ofBits_zero_f32).trans (zero_sub _)

/-- A row's maximum, read anywhere along the row. -/
theorem rmax_apply (N : FVec Ideal S2048x512 .f32) (r : Fin 2048) (k : Fin 512) :
    rmax N (ix2 r k) = (Finset.univ : Finset (Fin 512)).fold max (Ideal.ofBits .f32 0xFF800000#32) (fun k' => N (ix2 r k')) :=
  rowMax_keepdims_apply N 0xFF800000#32 reduces_S2048x512_S2048 (.inl rfl) rfl shapeCasts_S2048_S2048x1 broadcasts_S2048x1_S2048x512 r k

/-- A row's total, read anywhere along the row. -/
theorem tot_apply (W : FVec Ideal S2048x512 .f32) (r : Fin 2048) (k : Fin 512) :
    tot W (ix2 r k) = ∑ k' : Fin 512, W (ix2 r k') :=
  rowSum_keepdims_apply W 0x00000000#32 reduces_S2048x512_S2048 (.inl rfl) rfl shapeCasts_S2048_S2048x1 broadcasts_S2048x1_S2048x512 r k

/-- The second product on the narrowed shares: narrowing changes nothing. -/
theorem outm_apply (S : FVec Ideal S2048x512 .f32) (B : FVec Ideal S512x128 .bf16) (r : Fin 2048) (f : Fin 128) :
    outm S B (ix2 r f) = ∑ k : Fin 512, (S (ix2 r k) : EReal) * B (ix2 k f) :=
  blendMat_apply none (truncf .bf16 S bitsLt_bf16_f32) B r f

/-- THE BODY AT AN INDEX: entry (r, f) of what the stages compute is coordinate f of the blend of row r. -/
theorem stages_apply (B : FVec Ideal S512x128 .bf16)
    (hQ : ∀ k : Fin 512, (Q (ix2 (0 : Fin 1) k) : EReal) = sqLen (centers C k))
    (hB : ∀ (k : Fin 512) (f : Fin 128), (B (ix2 k f) : EReal) = C (ix2 k f)) (r : Fin 2048) (f : Fin 128) :
    outm (shr (wts (negd X C Q))) B (ix2 r f) = blend (fun f' => X (ix2 r f')) (centers C) f := by
  have hN : ∀ k : Fin 512, negd X C Q (ix2 r k) = negDist (fun f' => X (ix2 r f')) (centers C k) := fun k => negd_apply X C Q hQ r k
  have hM : ∀ k : Fin 512, rmax (negd X C Q) (ix2 r k) = rowMax (fun f' => X (ix2 r f')) (centers C) := fun k =>
    (rmax_apply _ r k).trans (congrArg (fun g => Finset.fold max (Ideal.ofBits .f32 0xFF800000#32) g (Finset.univ : Finset (Fin 512))) (funext hN))
  have hW : ∀ k : Fin 512, wts (negd X C Q) (ix2 r k) = weight (fun f' => X (ix2 r f')) (centers C) k := fun k => by
    show Ideal.exp (negd X C Q (ix2 r k) - rmax (negd X C Q) (ix2 r k)) = _
    rw [hN, hM]; rfl
  have hT : ∀ k : Fin 512, tot (wts (negd X C Q)) (ix2 r k) = total (fun f' => X (ix2 r f')) (centers C) := fun k =>
    (tot_apply _ r k).trans (Finset.sum_congr rfl fun k' _ => hW k')
  have hS : ∀ k : Fin 512, shr (wts (negd X C Q)) (ix2 r k) = share (fun f' => X (ix2 r f')) (centers C) k := fun k => by
    show Ideal.div (wts (negd X C Q) (ix2 r k)) (tot (wts (negd X C Q)) (ix2 r k)) = _
    rw [hW, hT]; rfl
  refine (outm_apply _ B r f).trans ?_
  show _ = ∑ k : Fin 512, share (fun f' => X (ix2 r f')) (centers C) k * centers C k f
  refine Finset.sum_congr rfl fun k _ => ?_
  rw [hS, hB]; rfl

end Stages

/-- THE STORED VALUE AT AN INDEX: entry (0, r, f) of the payload is coordinate f of the blend of the loaded block's row r
    against the loaded centers. -/
theorem pay_apply (v0 : Vec Ideal S1x2048x128 .f32) (v2 : Vec Ideal S512x128 .f32) (v3 : Vec Ideal S512x128 .bf16) (v5 : Vec Ideal S1x512 .f32)
    (h5 : ∀ k : Fin 512, (v5 (ix2 (0 : Fin 1) k) : EReal) = sqLen (centers v2 k))
    (h3 : ∀ (k : Fin 512) (f : Fin 128), (v3 (ix2 k f) : EReal) = v2 (ix2 k f)) (r : Fin 2048) (f : Fin 128) :
    k0_pay1 (F := Ideal) v0 v2 v3 v5 (ix3 (0 : Fin 1) r f) = blend (fun f' => v0 (ix3 (0 : Fin 1) r f')) (centers v2) f := by
  rw [pay_eq]
  refine (shapeCast_ab_1ab_apply _ shapeCasts_S2048x128_S1x2048x128 0 r f).trans ?_
  rw [shapeCast_self, shapeCast_self]
  refine (stages_apply _ v2 v5 v3 h5 h3 r f).trans ?_
  refine congrArg (fun v => blend v (centers v2) f) (funext fun f' => ?_)
  exact shapeCast_1ab_ab_apply v0 shapeCasts_S1x2048x128_S2048x128 r f'

end Cert.KernelIdeal.Body

end
-- ==== Proof.HostPrefix.lean ====
/-
  The two arrays the host computes before the kernel is launched, as the region finds them: the centers narrowed to
  the 16-bit format — at the extended reals the centers themselves — and the row of the centers' squared lengths, a host
  sum over the 128 coordinates from the zero word, laid out as one row of 512.
-/
import proofs.«146336_j82051055222995_2_alg».proof.Proof.Gen.KernelIdeal.Frame
import proofs.«146336_j82051055222995_2_alg».proof.Proof.Spec
import proofs.«146336_j82051055222995_2_alg».proof.Proof.LibKeepdims
import Idealize.ShloMosaic.Lib.StableHlo.Run
import Idealize.ShloMosaic.PureOps.Ideal.Laws

noncomputable section

open scoped BigOperators

namespace Cert.KernelIdeal.HostPrefix

open Cert.KernelIdeal Cert.KernelIdeal.Gen Cert.SoftAssign Cert.Lib
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The narrowed copy of the centers, as the region finds it. -/
theorem V_narrowed (c : Dev nD) :
    @Eq (FVec Ideal S512x128 .bf16) (V m c main_call0_v0)
      (truncf (F := Ideal) (s := S512x128) (φ := .f32) .bf16 (m ((c : Thread nD τ).loc main_arg1)) bitsLt_bf16_f32) := by
  dsimp only [Gen.V, Gen.hostOps0]; after_results; rfl

/-- The row of squared lengths, as the region finds it. -/
theorem V_sqRow (c : Dev nD) :
    @Eq (FVec Ideal S1x512 .f32) (V m c main_call0_v3)
      (broadcastInDim S1x512 ![1] bcast_S512_S1x512_1
          (Host.reduceAdd (F := Ideal) (mulf (F := Ideal) (s := S512x128) (φ := .f32) (m ((c : Thread nD τ).loc main_arg1)) (m ((c : Thread nD τ).loc main_arg1)))
            (constant (F := Ideal) S_ .f32 0x00000000#32) reducesTo_S512x128_S512_d1 h_S_)) := by
  dsimp only [Gen.V, Gen.hostOps0]; after_results; rfl

/-- Entry (k, f) of the narrowed copy is entry (k, f) of the centers. -/
theorem narrowed_apply (c : Dev nD) (z : S512x128.Idx) :
    (V m c main_call0_v0 : S512x128.Idx → EReal) z = (m ((c : Thread nD τ).loc main_arg1) : S512x128.Idx → EReal) z := by
  rw [V_narrowed]; rfl

/-- The host's row of squared lengths read at (0, k): the squared length of center k. -/
theorem sqRow_term_apply (Cc : FVec Ideal S512x128 .f32) (k : Fin 512) :
    broadcastInDim S1x512 ![1] bcast_S512_S1x512_1
        (Host.reduceAdd (F := Ideal) (mulf Cc Cc) (constant (F := Ideal) S_ .f32 0x00000000#32) reducesTo_S512x128_S512_d1 h_S_) (ix2 (0 : Fin 1) k)
      = sqLen (centers Cc k) := by
  have h : S512x128.Reduces [1] S512 := by decide
  refine (broadcastInDim_apply _ bcast_S512_S1x512_1 _ (ix2 (0 : Fin 1) k) (ix1 k) (fun a => match a with
    | ⟨0, _⟩ => by show k.val = if (512 : Nat) = 1 then 0 else k.val; rw [if_neg (by decide)])).trans ?_
  simp only [Host.reduceAdd, Ideal.hostReduceAdd_def]
  rw [Ideal.hostReduceAdd_single reducesTo_S512x128_S512_d1 h]
  show Ideal.ofBits .f32 0x00000000#32 + _ = ∑ f : Fin 128, Cc (ix2 k f) * Cc (ix2 k f)
  rw [Ideal.ofBits_zero_f32, zero_add]
  refine Finset.sum_congr rfl fun f _ => ?_
  rw [lift_row h k f]; rfl

/-- So the region finds, at (0, k) of the row, the squared length of center k. -/
theorem sqRow_apply (c : Dev nD) (k : Fin 512) :
    (V m c main_call0_v3 : S1x512.Idx → EReal) (ix2 (0 : Fin 1) k)
      = sqLen (centers (m ((c : Thread nD τ).loc main_arg1) : S512x128.Idx → EReal) k) := by
  rw [V_sqRow]; exact sqRow_term_apply _ k

end Cert.KernelIdeal.HostPrefix

end
-- ==== Proof.KernelValue.lean ====
/-
  From blocks to the array. The grid has 8 × 4 points; point (b, j) works on rows 2048·j … 2048·j + 2047 of batch b
  of `x`, sees all of the centers, their narrowed copy and the row of their squared lengths, and writes the same rows of
  the result. What a point writes back is therefore its block of `assign x c`: the block's row r is row (b, 2048·j + r)
  of `x`, the three other blocks are whole arrays, and the body at (r, f) is coordinate f of that row's blend. The 32
  blocks tile the result (row n lies in the block of point (b, n / 2048)), so the result array ends holding `assign x c`.
-/
import proofs.«146336_j82051055222995_2_alg».proof.Proof.Gen.KernelIdeal.Value
import proofs.«146336_j82051055222995_2_alg».proof.Proof.Body
import proofs.«146336_j82051055222995_2_alg».proof.Proof.HostPrefix
import Idealize.ShloMosaic.Lib.Pipeline.Value

set_option maxRecDepth 16384

noncomputable section

open scoped BigOperators

namespace Cert.KernelIdeal.Final

open Cert.KernelIdeal Cert.KernelIdeal.Gen Cert.SoftAssign
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem offsets3_zero : (![0, 0, 0] : Fin 3 → Nat) = fun _ => 0 := funext fun a => by fin_cases a <;> rfl
theorem offsets2_zero : (![0, 0] : Fin 2 → Nat) = fun _ => 0 := funext fun a => by fin_cases a <;> rfl

/-- The two argument arrays as launched. -/
abbrev Xarr (c : Dev nD) : S8x8192x128.Idx → EReal := m ((c : Thread nD τ).loc main_arg0)
abbrev Carr (c : Dev nD) : S512x128.Idx → EReal := m ((c : Thread nD τ).loc main_arg1)

/-- The printed index maps over the 32 grid points: the window on `x` moves with the result's window, every other
    window stays at block 0, and the result's block indices are a batch below 8 and a row tile below 4. -/
theorem windows_track_result : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) < 8 ∧ win0_4.index t (1 : Fin 3) < 4 :=
  (by decide +kernel : ∀ t : Fin grid0.N, _)

/-- Every (batch, row tile) is some point's block index. -/
theorem every_tile_has_a_point : ∀ (q0 : Fin 8) (q1 : Fin 4), ∃ t : Fin cfg0.N, win0_4.index t = ![q0.val, q1.val, 0] :=
  (by decide +kernel : ∀ (q0 : Fin 8) (q1 : Fin 4), ∃ t : Fin grid0.N, win0_4.index t = ![q0.val, q1.val, 0])

/-- ONE POINT, over variables: if the block of `x` holds row (b, n) of `X` in its row r, the two blocks of centers hold
    `Cc`, and the row block holds the centers' squared lengths, the body's value at (0, r, f) is `assign X Cc` at (b, n, f). -/
theorem point_eq (v0 : Vec Ideal S1x2048x128 .f32) (v2 : Vec Ideal S512x128 .f32) (v3 : Vec Ideal S512x128 .bf16) (v5 : Vec Ideal S1x512 .f32)
    (X : SX.Idx → EReal) (Cc : SC.Idx → EReal) (r : Fin 2048) (f : Fin 128) (b : Fin 8) (n : Fin 8192)
    (h0 : ∀ f' : Fin 128, (v0 (ix3 (0 : Fin 1) r f') : EReal) = X (ix3 b n f'))
    (h2 : ∀ (k : Fin 512) (f' : Fin 128), (v2 (ix2 k f') : EReal) = Cc (ix2 k f'))
    (h3 : ∀ (k : Fin 512) (f' : Fin 128), (v3 (ix2 k f') : EReal) = Cc (ix2 k f'))
    (h5 : ∀ k : Fin 512, (v5 (ix2 (0 : Fin 1) k) : EReal) = sqLen (centers Cc k)) :
    k0_pay1 (F := Ideal) v0 v2 v3 v5 (ix3 (0 : Fin 1) r f) = assign X Cc (ix3 b n f) := by
  have hC : centers v2 = centers Cc := funext fun k => funext fun f' => h2 k f'
  have hR : (fun f' => (v0 (ix3 (0 : Fin 1) r f') : EReal)) = rowOf X b n := funext h0
  refine (Body.pay_apply v0 v2 v3 v5 (fun k => (h5 k).trans (by rw [hC])) (fun k f' => (h3 k f').trans (h2 k f').symm) r f).trans ?_
  rw [hC, hR]
  rfl

/-- WHAT POINT `t` WRITES BACK is block `t` of `assign` of the two arguments. -/
theorem writeback_is_block (c : Dev nD) (t : Fin cfg0.N) :
    (dats m 0 c).flushed 4 t = ((cfg0.win 4).blk t).view.read (Elt Ideal) (assign (Xarr m c) (Carr m c)) := by
  rw [Value.flushed4]
  unfold out0_4
  rw [View.canon_unit_zero offsets3_zero]
  simp only [View.ld_unit_zero (S := S1x2048x128) offsets3_zero, View.ld_unit_zero (S := S512x128) offsets2_zero, View.ld_unit_zero (S := S1x512) offsets2_zero]
  obtain ⟨e00, e01, e02, e42, e10, e11, e20, e21, e30, e31, b0, b1⟩ := windows_track_result t
  refine funext fun (y : S1x2048x128.Idx) => ?_
  obtain ⟨u, r, f, rfl⟩ : ∃ (u : Fin 1) (r : Fin 2048) (f : Fin 128), y = ix3 u r f := ⟨y 0, y 1, y 2, eq_ix3 y⟩
  obtain rfl : u = 0 := Subsingleton.elim _ _
  have hemb : ((cfg0.win 4).blk t).view.emb (ix3 (0 : Fin 1) r f)
      = ix3 (⟨win0_4.index t (0 : Fin 3), b0⟩ : Fin 8) (⟨win0_4.index t (1 : Fin 3) * 2048 + r.val, by have := r.isLt; omega⟩ : Fin 8192) f := by
    funext a; apply Fin.ext
    match a with
    | ⟨0, _⟩ => show win0_4.index t (0 : Fin 3) * 1 + 1 * 0 = win0_4.index t (0 : Fin 3); omega
    | ⟨1, _⟩ => show win0_4.index t (1 : Fin 3) * 2048 + 1 * r.val = win0_4.index t (1 : Fin 3) * 2048 + r.val; omega
    | ⟨2, _⟩ => show win0_4.index t (2 : Fin 3) * 128 + 1 * f.val = f.val; omega
  show k0_pay1 (F := Ideal) (iblk m c 0 t) (iblk m c 1 t) (iblk m c 2 t) (iblk m c 3 t) (ix3 (0 : Fin 1) r f)
      = assign (Xarr m c) (Carr m c) (((cfg0.win 4).blk t).view.emb (ix3 (0 : Fin 1) r f))
  rw [hemb]
  refine point_eq _ _ _ _ (Xarr m c) (Carr m c) r f _ _ ?_ ?_ ?_ ?_
  · intro f'
    show V m c main_arg0 (((cfg0.win 0).blk t).view.emb (ix3 (0 : Fin 1) r f')) = _
    rw [V_main_arg0]
    refine congrArg (Xarr m c) (funext fun a => Fin.ext ?_)
    match a with
    | ⟨0, _⟩ => show win0_0.index t (0 : Fin 3) * 1 + 1 * 0 = win0_4.index t (0 : Fin 3); omega
    | ⟨1, _⟩ => show win0_0.index t (1 : Fin 3) * 2048 + 1 * r.val = win0_4.index t (1 : Fin 3) * 2048 + r.val; omega
    | ⟨2, _⟩ => show win0_0.index t (2 : Fin 3) * 128 + 1 * f'.val = f'.val; omega
  · intro k f'
    show V m c main_arg1 (((cfg0.win 1).blk t).view.emb (ix2 k f')) = _
    rw [V_main_arg1]
    refine congrArg (Carr m c) (funext fun a => Fin.ext ?_)
    match a with
    | ⟨0, _⟩ => show win0_1.index t (0 : Fin 2) * 512 + 1 * k.val = k.val; omega
    | ⟨1, _⟩ => show win0_1.index t (1 : Fin 2) * 128 + 1 * f'.val = f'.val; omega
  · intro k f'
    have e : ((cfg0.win 2).blk t).view.emb (ix2 k f') = ix2 k f' := funext fun a => Fin.ext (by
      match a with
      | ⟨0, _⟩ => show win0_2.index t (0 : Fin 2) * 512 + 1 * k.val = k.val; omega
      | ⟨1, _⟩ => show win0_2.index t (1 : Fin 2) * 128 + 1 * f'.val = f'.val; omega)
    show (V m c main_call0_v0 : S512x128.Idx → EReal) (((cfg0.win 2).blk t).view.emb (ix2 k f')) = _
    rw [e]
    exact HostPrefix.narrowed_apply m c (ix2 k f')
  · intro k
    have e : ((cfg0.win 3).blk t).view.emb (ix2 (0 : Fin 1) k) = ix2 (0 : Fin 1) k := funext fun a => Fin.ext (by
      match a with
      | ⟨0, _⟩ => show win0_3.index t (0 : Fin 2) * 1 + 1 * 0 = 0; omega
      | ⟨1, _⟩ => show win0_3.index t (1 : Fin 2) * 512 + 1 * k.val = k.val; omega)
    show (V m c main_call0_v3 : S1x512.Idx → EReal) (((cfg0.win 3).blk t).view.emb (ix2 (0 : Fin 1) k)) = _
    rw [e]
    exact HostPrefix.sqRow_apply m c k

/-- An index of the result is in point `t`'s block iff each coordinate is in the block's range on its axis. -/
theorem mem_block_iff (t : Fin cfg0.N) (i : S8x8192x128.Idx) :
    i ∈ ((cfg0.win 4).blk t).view.set ↔ ∀ a : Fin 3, win0_4.index t a * S1x2048x128.size a ≤ (i a).val ∧ (i a).val < win0_4.index t a * S1x2048x128.size a + S1x2048x128.size a := by
  show i ∈ ((View.whole main_v0).slice (win0_4.rect t)).set ↔ _
  rw [View.set_slice_whole, Rect.mem_set_unit]
  exact Iff.rfl

/-- THE COVER: entry (b, n, f) lies in the block of the point with block index (b, n / 2048, 0). -/
theorem blocks_tile_result (i : S8x8192x128.Idx) : ∃ t : Fin cfg0.N, (cfg0.win 4).flush t = true ∧ i ∈ ((cfg0.win 4).blk t).view.set := by
  have hi0 : (i 0).val < 8 := (i 0).isLt
  have hi1 : (i 1).val < 8192 := (i 1).isLt
  have hi2 : (i 2).val < 128 := (i 2).isLt
  obtain ⟨t, ht⟩ := every_tile_has_a_point ⟨(i 0).val, hi0⟩ ⟨(i 1).val / 2048, by omega⟩
  have q0 : win0_4.index t (0 : Fin 3) = (i 0).val := congrFun ht 0
  have q1 : win0_4.index t (1 : Fin 3) = (i 1).val / 2048 := congrFun ht 1
  have q2 : win0_4.index t (2 : Fin 3) = 0 := congrFun ht 2
  refine ⟨t, flush0_4 t, ?_⟩
  rw [mem_block_iff]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 128 ≤ (i 2).val ∧ (i 2).val < win0_4.index t (2 : Fin 3) * 128 + 128; omega

/-- THE RESULT ARRAY after the run is `assign` of the two arguments. -/
theorem result_array (c : Dev nD) : (dats m 0 c).arrAt 4 cfg0.N = assign (Xarr m c) (Carr m c) :=
  (dats m 0 c).arrAt_eq_of_cover 4 (assign (Xarr m c) (Carr m c)) (fun t _ => writeback_is_block m c t) blocks_tile_result

/-- The kernel's run, read: the result at `assign` of the arguments, the arguments unchanged. -/
theorem kernel_run : θ_run defs (onTc (τ := τ) (main (F := Ideal))) ⟨m, fun _ => 0, ρ⟩ fun r => ∀ c : Dev nD,
      r.2.mem ((c : Thread nD τ).loc main_v0) = assign (Xarr m c) (Carr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩) (Value.run_blocks m ρ)

end Cert.KernelIdeal.Final

end
-- ==== Proof.lean ====
/-
  A soft assignment of rows to cluster centers: the kernel against its jnp reference, equal at the extended reals.

  Both programs take `x` (8 × 8192 rows of 128 numbers) and 512 centers of 128 numbers. For every row they form the
  distance to every center as `√(max (|row|² + |center|² - 2⟨row, center⟩) 0)`, take the softmax of the negated
  distances over the centers (subtracting the row's greatest negated distance before the exponential and dividing by the
  row's total), and return the centers averaged by these shares: `Spec.lean`'s `assign x c`.

  The kernel runs on a grid of 8 × 4 points, each on 2048 rows of one batch, with the centers, a narrowed copy of them and
  the row of their squared lengths (both made by the host before the launch) resident. Its two matrix products accumulate
  into zero, its squared lengths, row maxima and row totals are lane reductions kept as columns, it writes `0 - d` for
  `-d`, and it narrows the shares and the centers to 16 bits before the second product. The reference is thirty-six host
  operations on whole arrays; it takes one more `max` against -∞ after its max-reduce. Over the extended reals none of
  this differs: a product into a zero accumulator and the host's contraction are the same sum of products, a lane sum and
  the host's sum from the zero word are the same sum, the two maxima are the same fold of `max` from -∞ (which a further
  `max` against -∞ does not change), `0 - d = -d`, and a change of format is the identity. No step uses that the inputs
  are finite: the two sides are the same expression entry by entry, so the precondition is never opened.

  `RefIsSpec.lean` reads the reference's result as `assign` of its arguments; `Body.lean` reads the kernel body's stored
  value at an index; `HostPrefix.lean` reads the two arrays the host prepares; `KernelValue.lean` goes from the 32 blocks
  to the whole result array. Here the five claims are assembled: the three frames (the kernels' from their generated frame
  runs, the reference's from its generated run with the result dropped), the idealization's ledger (empty), and the
  equality of results.
-/
import proofs.«146336_j82051055222995_2_alg».proof.Defs
import proofs.«146336_j82051055222995_2_alg».proof.Proof.Gen.Kernel
import proofs.«146336_j82051055222995_2_alg».proof.Proof.Gen.Kernel.Skeleton
import proofs.«146336_j82051055222995_2_alg».proof.Proof.Gen.Kernel.Launch
import proofs.«146336_j82051055222995_2_alg».proof.Proof.Gen.Kernel.Points
import proofs.«146336_j82051055222995_2_alg».proof.Proof.Gen.Kernel.Frame
import proofs.«146336_j82051055222995_2_alg».proof.Proof.Gen.KernelIdeal
import proofs.«146336_j82051055222995_2_alg».proof.Proof.Gen.KernelIdeal.Skeleton
import proofs.«146336_j82051055222995_2_alg».proof.Proof.Gen.KernelIdeal.Launch
import proofs.«146336_j82051055222995_2_alg».proof.Proof.Gen.KernelIdeal.Points
import proofs.«146336_j82051055222995_2_alg».proof.Proof.Gen.KernelIdeal.Frame
import proofs.«146336_j82051055222995_2_alg».proof.Proof.Gen.ReferenceIdeal
import proofs.«146336_j82051055222995_2_alg».proof.Proof.Gen.Pre_finite_inputs
import proofs.«146336_j82051055222995_2_alg».proof.Proof.Gen.KernelIdeal.Value
import proofs.«146336_j82051055222995_2_alg».proof.Proof.Gen.ReferenceIdeal.Run
import proofs.«146336_j82051055222995_2_alg».proof.Proof.Gen.ReferenceIdeal.Read
import proofs.«146336_j82051055222995_2_alg».proof.Proof.RefIsSpec
import proofs.«146336_j82051055222995_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to show. -/
theorem preserves : Cert.preserves_Kernel_KernelIdeal := trivial

/-- From memories that agree on `x` and on the centers, both programs end with the result array at `assign x c`. -/
theorem algebraic : Cert.algebraic_KernelIdeal_ReferenceIdeal := by
  intro m ρ m' ρ' _ hagree
  refine ⟨fun c => Cert.SoftAssign.assign (Cert.KernelIdeal.Final.Xarr m c) (Cert.KernelIdeal.Final.Carr m c),
    Cert.KernelIdeal.Final.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
